-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 85
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S1600000, .f32⟩
  | .hbm, ⟨48, _⟩ => ⟨S1600000, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x1, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S1600000x1, .f32⟩
  | .hbm, ⟨77, _⟩ => ⟨S1600000x128, .f32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S1x128, .f32⟩
  | .hbm, ⟨84, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .i1⟩
  | 21 => ⟨S_, .f32⟩
  | 22 => ⟨S100000, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S1600000x1, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S1x1600000, .i32⟩
  | 75 => ⟨S1600000, .i32⟩
  | 76 => ⟨S1x1600000, .i32⟩
  | 77 => ⟨S1600000, .i32⟩
  | 78 => ⟨S_, .f32⟩
  | 79 => ⟨S1600000, .f32⟩
  | 80 => ⟨S_, .f32⟩
  | 81 => ⟨S100000, .f32⟩
  | 82 => ⟨S1600000x1, .i32⟩
  | 83 => ⟨S100000, .f32⟩
  | 84 => ⟨S_, .f32⟩
  | 85 => ⟨S100000, .f32⟩
  | 86 => ⟨S100000, .i1⟩
  | 87 => ⟨S_, .f32⟩
  | 88 => ⟨S100000, .f32⟩
  | 89 => ⟨S100000, .f32⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000, .f32⟩
  | 113 => ⟨S1600000, .f32⟩
  | 114 => ⟨S1600000, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x128, .f32⟩
  | 124 => ⟨S1600000x1, .f32⟩
  | 125 => ⟨S1600000x128, .f32⟩
  | 126 => ⟨S1600000x128, .f32⟩
  | 127 => ⟨S_, .f32⟩
  | _ => ⟨S100000x128, .f32⟩

abbrev hbmTy0_1 (i : Nat) : BufTy := match i % 128 with
  | 0 => ⟨S100000x128, .f32⟩
  | 1 => ⟨S1600000x1, .i32⟩
  | 2 => ⟨S100000x128, .f32⟩
  | 3 => ⟨S100000x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S100000x128, .f32⟩
  | 13 => ⟨S_, .f32⟩
  | 14 => ⟨S100000x128, .f32⟩
  | 15 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_call2_v0 : Ref sig .tc := ⟨.hbm, 92, rfl⟩
abbrev main_call2_v1 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_17 : Ref sig .tc := ⟨.hbm, 104, rfl⟩
abbrev main_v71 : Ref sig .tc := ⟨.hbm, 105, rfl⟩
abbrev main_v72 : Ref sig .tc := ⟨.hbm, 106, rfl⟩
abbrev main_c_18 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_19 : Ref sig .tc := ⟨.hbm, 115, rfl⟩
abbrev main_v80 : Ref sig .tc := ⟨.hbm, 116, rfl⟩
abbrev main_v81 : Ref sig .tc := ⟨.hbm, 117, rfl⟩
abbrev main_c_20 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_21 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_call3_cst : Ref sig .tc := ⟨.hbm, 137, rfl⟩
abbrev main_call3_v0 : Ref sig .tc := ⟨.hbm, 138, rfl⟩
abbrev main_v99 : Ref sig .tc := ⟨.hbm, 139, rfl⟩
abbrev main_v100 : Ref sig .tc := ⟨.hbm, 140, rfl⟩
abbrev main_cst_22 : Ref sig .tc := ⟨.hbm, 141, rfl⟩
abbrev main_v101 : Ref sig .tc := ⟨.hbm, 142, rfl⟩
abbrev main_v102 : Ref sig .tc := ⟨.hbm, 143, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result named.

  @main is six segments: three stretches of host operations, the first layer's pallas_call, one more stretch of
  host operations, the second layer's pallas_call. The contents of every unscoped buffer at each boundary are a fold
  from the launch memory (`Gen.W0 … Gen.W6`). Every weakly fair execution terminates without a fault, and in the final
  state every unscoped buffer holds the last boundary's contents `Gen.W6`; the frame claim keeps of this only the eight
  argument arrays. Here the result array `main_v59` is kept as well: it ends at `Gen.W6 m ρ c main_v59`.
-/
import proofs.«122090_j24919400251990_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's
    contents and the arguments end as launched. -/
theorem run_result : θ_run defs (onTc (τ := τ) (main (F := F))) ⟨m, fun _ => 0, ρ⟩ (fun r => ∀ c : Dev nD,
      r.2.mem ((c.tc : Thread nD τ).loc main_v59) = W6 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v59 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Whole

end
-- ==== Proof.KernelPayload.lean ====
/-
  The two kernel bodies' arithmetic at one entry of the block, at the exact instance.

  Each body loads a block of 5000 rows of the features `a` and of the aggregated features `t`, the two whole weight
  matrices and the bias as a row [1, 128], and stores ONE value over the whole output block. At the exact instance the
  changes of float format are the identity and a matrix product into a zero accumulator is the plain sum over the
  contracted axis, so at row `p` and column `q` of the block the first body stores

      max ( (Σ_k a[p, k] · W0[k, q]) + (Σ_k t[p, k] · W1[k, q]) + b[0, q] , 0 )

  and the second body stores `(a[p, q] + that) · ½`.
-/
import proofs.«122090_j24919400251990_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.ValueIdx
open scoped BigOperators

/-! ## The matrix product's operand indices -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of rows times a weight matrix, into the zero accumulator, at row `p` and column `q`: the sum over the
    contracted axis of the row's entries times the column's. -/
theorem matmul_at {φ₁ φ₂ : FTy} (a : FVec Ideal S5000x128 φ₁) (w : FVec Ideal S128x128 φ₂) (p : Fin 5000) (q : Fin 128) :
    FloatOps.matmul dot_S5000x128_S128x128_S5000x128_1_0_0_1_n_n none a w (constant S5000x128 .f32 0x00000000#32) (ix2 p q)
      = ∑ k : Fin 128, a (ix2 p k) * w (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-- The bias row [1, 128] broadcast over the block's rows, at row `p` and column `q`: the row's entry at `q`. -/
theorem bias_at (b : Vec Ideal S1x128 .f32) (p : Fin 5000) (q : Fin 128) :
    broadcastTo S5000x128 (shapeCast S1x128 b shapeCasts_S1x128_S1x128) broadcasts_S1x128_S5000x128 (ix2 p q)
      = b (ix2 (0 : Fin 1) q) := by
  rw [shapeCast_self]
  exact broadcastTo_apply b broadcasts_S1x128_S5000x128 (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-! ## The two payloads -/

/-- One entry of a layer on a block: products, bias, rectifier. -/
def blockLayerAt (a t : Vec Ideal S5000x128 .f32) (W0 W1 : Vec Ideal S128x128 .f32) (b : Vec Ideal S1x128 .f32)
    (p : Fin 5000) (q : Fin 128) : EReal :=
  max ((∑ k : Fin 128, a (ix2 p k) * W0 (ix2 k q)) + (∑ k : Fin 128, t (ix2 p k) * W1 (ix2 k q)) + b (ix2 (0 : Fin 1) q))
    (Ideal.ofBits .f32 0x00000000#32)

/-- The first body's stored value at an entry of the block. -/
theorem pay0_at (a t : Vec Ideal S5000x128 .f32) (W0 W1 : Vec Ideal S128x128 .f32) (b : Vec Ideal S1x128 .f32)
    (p : Fin 5000) (q : Fin 128) :
    k0_pay1 (F := Ideal) a t W0 W1 b (ix2 p q) = blockLayerAt a t W0 W1 b p q := by
  unfold k0_pay1 blockLayerAt
  show max (FloatOps.matmul (F := Ideal) dot_S5000x128_S128x128_S5000x128_1_0_0_1_n_n none (truncf .bf16 a bitsLt_bf16_f32) (truncf .bf16 W0 bitsLt_bf16_f32) (constant S5000x128 .f32 0x00000000#32) (ix2 p q)
        + FloatOps.matmul (F := Ideal) dot_S5000x128_S128x128_S5000x128_1_0_0_1_n_n none (truncf .bf16 (shapeCast S5000x128 t shapeCasts_S5000x128_S5000x128) bitsLt_bf16_f32) (truncf .bf16 W1 bitsLt_bf16_f32) (constant S5000x128 .f32 0x00000000#32) (ix2 p q)
        + broadcastTo S5000x128 (shapeCast S1x128 b shapeCasts_S1x128_S1x128) broadcasts_S1x128_S5000x128 (ix2 p q))
      (Ideal.ofBits .f32 0x00000000#32) = _
  rw [matmul_at, matmul_at, bias_at, shapeCast_self]
  rfl

/-- The second body's stored value at an entry of the block: the mean of the block's own entry and the layer's. -/
theorem pay1_at (a t : Vec Ideal S5000x128 .f32) (W0 W1 : Vec Ideal S128x128 .f32) (b : Vec Ideal S1x128 .f32)
    (a' : Vec Ideal S5000x128 .f32) (p : Fin 5000) (q : Fin 128) :
    k1_pay1 (F := Ideal) a t W0 W1 b a' (ix2 p q)
      = (a' (ix2 p q) + blockLayerAt a t W0 W1 b p q) * Ideal.ofBits .f32 0x3F000000#32 := by
  unfold k1_pay1 blockLayerAt
  show (shapeCast S5000x128 a' shapeCasts_S5000x128_S5000x128 (ix2 p q)
        + max (FloatOps.matmul (F := Ideal) dot_S5000x128_S128x128_S5000x128_1_0_0_1_n_n none (truncf .bf16 (shapeCast S5000x128 a shapeCasts_S5000x128_S5000x128) bitsLt_bf16_f32) (truncf .bf16 W0 bitsLt_bf16_f32) (constant S5000x128 .f32 0x00000000#32) (ix2 p q)
            + FloatOps.matmul (F := Ideal) dot_S5000x128_S128x128_S5000x128_1_0_0_1_n_n none (truncf .bf16 (shapeCast S5000x128 t shapeCasts_S5000x128_S5000x128) bitsLt_bf16_f32) (truncf .bf16 W1 bitsLt_bf16_f32) (constant S5000x128 .f32 0x00000000#32) (ix2 p q)
            + broadcastTo S5000x128 (shapeCast S1x128 b shapeCasts_S1x128_S1x128) broadcasts_S1x128_S5000x128 (ix2 p q))
          (Ideal.ofBits .f32 0x00000000#32))
      * Ideal.ofBits .f32 0x3F000000#32 = _
  rw [matmul_at, matmul_at, bias_at, shapeCast_self, shapeCast_self, shapeCast_self]
  rfl

end Cert.KernelIdeal.Pay

end
-- ==== Proof.Layer.lean ====
/-
  The specification: one Chebyshev-convolution layer (K = 2) and the mean of the two layers' outputs, as functions of
  whole arrays at the exact instance, index by index.

  A layer takes the node features `x` and the aggregated neighbour features `tx` (both 100000 × 128), two weight
  matrices (128 × 128) and a bias (128) and returns, at row `r` and column `q`,

      max ( (Σ_k x[r, k] · W0[k, q]) + (Σ_k tx[r, k] · W1[k, q]) + b[q] , 0 ).

  The result of the two-layer network is `(x1 + x2) · ½` element by element, where `x1` is the first layer's output
  and `x2` the second's. The zero and the half are kept as the f32 words both programs spell.
-/
import Idealize.ShloMosaic.PureOps.Ideal
import Idealize.ShloMosaic.Lib.ValueIdx

noncomputable section

namespace Cert.Cheb

open Idealize.ShloMosaic Idealize.ShloMosaic.ValueIdx
open scoped BigOperators

/-- Node features: 100000 nodes, 128 features. -/
abbrev SN : Shape := ⟨2, ![100000, 128]⟩
/-- A weight matrix. -/
abbrev SW : Shape := ⟨2, ![128, 128]⟩
/-- A bias vector. -/
abbrev SB : Shape := ⟨1, ![128]⟩

/-- One entry of a layer's output: the two matrix products' entries, the bias, and the rectifier. -/
def layerAt (x tx : FVec Ideal SN .f32) (W0 W1 : FVec Ideal SW .f32) (b : FVec Ideal SB .f32)
    (r : Fin 100000) (q : Fin 128) : EReal :=
  max ((∑ k : Fin 128, x (ix2 r k) * W0 (ix2 k q)) + (∑ k : Fin 128, tx (ix2 r k) * W1 (ix2 k q)) + b (ix1 q))
    (Ideal.ofBits .f32 0x00000000#32)

/-- A layer's output array. -/
def layer (x tx : FVec Ideal SN .f32) (W0 W1 : FVec Ideal SW .f32) (b : FVec Ideal SB .f32) : FVec Ideal SN .f32 :=
  fun j => layerAt x tx W0 W1 b (j 0) (j 1)

theorem layer_ix2 (x tx : FVec Ideal SN .f32) (W0 W1 : FVec Ideal SW .f32) (b : FVec Ideal SB .f32)
    (r : Fin 100000) (q : Fin 128) : layer x tx W0 W1 b (ix2 r q) = layerAt x tx W0 W1 b r q := rfl

/-- The mean of the two layers' outputs, as the programs compute it: the sum times one half. -/
def mean2 (a r : FVec Ideal SN .f32) : FVec Ideal SN .f32 :=
  fun j => (a j + r j) * Ideal.ofBits .f32 0x3F000000#32

end Cert.Cheb

end
-- ==== Proof.KernelBlocks.lean ====
/-
  From blocks to arrays: what each pallas_call leaves in its output array, as ONE function of the arrays the region
  finds when it is entered.

  Each call runs its body at twenty grid points. At point `t` the body sees rows `5000·t … 5000·t + 4999` of the
  features and of the aggregated features, the two whole weight matrices and the bias row, and the pipeline writes the
  block the body stored back to the same rows of the output array. The stored block is the spec's layer (for the
  second call: the mean of the features and the layer) of the WHOLE arrays, read at the block's rows — a row of a
  matrix product depends only on that row of the left operand. The twenty blocks cover every row, so the array ends
  holding that function everywhere.
-/
import proofs.«122090_j24919400251990_1_alg».proof.Proof.Gen.KernelIdeal.Frame
import proofs.«122090_j24919400251990_1_alg».proof.Proof.KernelPayload
import proofs.«122090_j24919400251990_1_alg».proof.Proof.Layer

set_option maxRecDepth 16384

noncomputable section

namespace Cert.KernelIdeal.Blocks

open Cert.KernelIdeal Cert.KernelIdeal.Gen Cert.Cheb
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- Row `p` of the block of grid point `n` is row `5000·n + p` of the array. -/
def rowAt (n : Nat) (hn : n < 20) (p : Fin 5000) : Fin 100000 :=
  ⟨n * 5000 + p.val, by have := p.isLt; omega⟩

/-! ## Region 0: the first layer -/

/-- The window index maps, decided once over the twenty grid points: the feature windows and the output window move
    down the rows with the point, the weight and bias windows stay. -/
theorem idx0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt20_0 (t : Fin cfg0.N) : t.val < 20 := lt_of_lt_of_eq t.isLt N_0

/-- Where an entry of point `t`'s block of rows sits in the array: row `5000·t + p`, the same column. -/
theorem emb0_0 (t : Fin cfg0.N) (p : Fin 5000) (k : Fin 128) :
    ((cfg0.win 0).blk t).view.emb (ix2 p k) = ix2 (rowAt t.val (lt20_0 t) p) k := by
  obtain ⟨e00, e01, e10, e11, e20, e21, e30, e31, e40, e41, e50, e51⟩ := idx0 t
  funext a; apply Fin.ext
  match a with
  | ⟨0, _⟩ => show win0_0.index t (0 : Fin 2) * 5000 + 1 * p.val = t.val * 5000 + p.val; rw [e00]; omega
  | ⟨1, _⟩ => show win0_0.index t (1 : Fin 2) * 128 + 1 * k.val = k.val; rw [e01]; omega
theorem emb0_1 (t : Fin cfg0.N) (p : Fin 5000) (k : Fin 128) :
    ((cfg0.win 1).blk t).view.emb (ix2 p k) = ix2 (rowAt t.val (lt20_0 t) p) k := by
  obtain ⟨e00, e01, e10, e11, e20, e21, e30, e31, e40, e41, e50, e51⟩ := idx0 t
  funext a; apply Fin.ext
  match a with
  | ⟨0, _⟩ => show win0_1.index t (0 : Fin 2) * 5000 + 1 * p.val = t.val * 5000 + p.val; rw [e10]; omega
  | ⟨1, _⟩ => show win0_1.index t (1 : Fin 2) * 128 + 1 * k.val = k.val; rw [e11]; omega
theorem emb0_5 (t : Fin cfg0.N) (p : Fin 5000) (k : Fin 128) :
    ((cfg0.win 5).blk t).view.emb (ix2 p k) = ix2 (rowAt t.val (lt20_0 t) p) k := by
  obtain ⟨e00, e01, e10, e11, e20, e21, e30, e31, e40, e41, e50, e51⟩ := idx0 t
  funext a; apply Fin.ext
  match a with
  | ⟨0, _⟩ => show win0_5.index t (0 : Fin 2) * 5000 + 1 * p.val = t.val * 5000 + p.val; rw [e50]; omega
  | ⟨1, _⟩ => show win0_5.index t (1 : Fin 2) * 128 + 1 * k.val = k.val; rw [e51]; omega
/-- A weight window's block is the whole matrix at every point. -/
theorem emb0_2 (t : Fin cfg0.N) (k : Fin 128) (q : Fin 128) :
    ((cfg0.win 2).blk t).view.emb (ix2 k q) = ix2 k q := by
  obtain ⟨e00, e01, e10, e11, e20, e21, e30, e31, e40, e41, e50, e51⟩ := idx0 t
  funext a; apply Fin.ext
  match a with
  | ⟨0, _⟩ => show win0_2.index t (0 : Fin 2) * 128 + 1 * k.val = k.val; rw [e20]; omega
  | ⟨1, _⟩ => show win0_2.index t (1 : Fin 2) * 128 + 1 * q.val = q.val; rw [e21]; omega
theorem emb0_3 (t : Fin cfg0.N) (k : Fin 128) (q : Fin 128) :
    ((cfg0.win 3).blk t).view.emb (ix2 k q) = ix2 k q := by
  obtain ⟨e00, e01, e10, e11, e20, e21, e30, e31, e40, e41, e50, e51⟩ := idx0 t
  funext a; apply Fin.ext
  match a with
  | ⟨0, _⟩ => show win0_3.index t (0 : Fin 2) * 128 + 1 * k.val = k.val; rw [e30]; omega
  | ⟨1, _⟩ => show win0_3.index t (1 : Fin 2) * 128 + 1 * q.val = q.val; rw [e31]; omega
/-- The bias window's block is the whole row at every point. -/
theorem emb0_4 (t : Fin cfg0.N) (z : Fin 1) (q : Fin 128) :
    ((cfg0.win 4).blk t).view.emb (ix2 z q) = ix2 z q := by
  obtain ⟨e00, e01, e10, e11, e20, e21, e30, e31, e40, e41, e50, e51⟩ := idx0 t
  funext a; apply Fin.ext
  match a with
  | ⟨0, _⟩ => show win0_4.index t (0 : Fin 2) * 1 + 1 * z.val = z.val; rw [e40]; omega
  | ⟨1, _⟩ => show win0_4.index t (1 : Fin 2) * 128 + 1 * q.val = q.val; rw [e41]; omega

/-- Each input block at an entry is its array at the entry's place. -/
theorem iblk0_0_at (c : Dev nD) (t : Fin cfg0.N) (p : Fin 5000) (k : Fin 128) :
    iblk0 V c 0 t (ix2 p k) = V c main_arg0 (ix2 (rowAt t.val (lt20_0 t) p) k) := by
  show V c main_arg0 (((cfg0.win 0).blk t).view.emb (ix2 p k)) = _
  rw [emb0_0]
theorem iblk0_1_at (c : Dev nD) (t : Fin cfg0.N) (p : Fin 5000) (k : Fin 128) :
    iblk0 V c 1 t (ix2 p k) = V c main_v42 (ix2 (rowAt t.val (lt20_0 t) p) k) := by
  show V c main_v42 (((cfg0.win 1).blk t).view.emb (ix2 p k)) = _
  rw [emb0_1]
theorem iblk0_2_at (c : Dev nD) (t : Fin cfg0.N) (k : Fin 128) (q : Fin 128) :
    iblk0 V c 2 t (ix2 k q) = V c main_arg2 (ix2 k q) := by
  show V c main_arg2 (((cfg0.win 2).blk t).view.emb (ix2 k q)) = _
  rw [emb0_2]
theorem iblk0_3_at (c : Dev nD) (t : Fin cfg0.N) (k : Fin 128) (q : Fin 128) :
    iblk0 V c 3 t (ix2 k q) = V c main_arg3 (ix2 k q) := by
  show V c main_arg3 (((cfg0.win 3).blk t).view.emb (ix2 k q)) = _
  rw [emb0_3]
theorem iblk0_4_at (c : Dev nD) (t : Fin cfg0.N) (z : Fin 1) (q : Fin 128) :
    iblk0 V c 4 t (ix2 z q) = V c main_v43 (ix2 z q) := by
  show V c main_v43 (((cfg0.win 4).blk t).view.emb (ix2 z q)) = _
  rw [emb0_4]

/-- The layer this region computes, of the arrays as the region finds them; the bias is read from its [1, 128] row. -/
def L0 (c : Dev nD) : FVec Ideal SN .f32 :=
  layer (V c main_arg0) (V c main_v42) (V c main_arg2) (V c main_arg3) (fun i => V c main_v43 (ix2 (n0 := 1) (n1 := 128) 0 (i 0)))

/-- What the region's output array ends holding. -/
def G0 (c : Dev nD) : FVec Ideal SN .f32 := L0 V c

/-- The block's layer entry is the array's layer entry at the block's place. -/
theorem blockLayer0 (c : Dev nD) (t : Fin cfg0.N) (p : Fin 5000) (q : Fin 128) :
    Pay.blockLayerAt (iblk0 V c 0 t) (iblk0 V c 1 t) (iblk0 V c 2 t) (iblk0 V c 3 t) (iblk0 V c 4 t) p q
      = L0 V c (ix2 (rowAt t.val (lt20_0 t) p) q) := by
  unfold Pay.blockLayerAt L0
  rw [layer_ix2]
  unfold layerAt
  simp only [iblk0_0_at, iblk0_1_at, iblk0_2_at, iblk0_3_at, iblk0_4_at]

/-- WHAT POINT `t` WRITES BACK is block `t` of the region's whole-array function. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show k0_pay1 (F := Ideal) (iblk0 V c 0 t) (iblk0 V c 1 t) (iblk0 V c 2 t) (iblk0 V c 3 t) (iblk0 V c 4 t) (ix2 p q)
      = G0 V c (((cfg0.win 5).blk t).view.emb (ix2 p q))
  rw [emb0_5 t p q]
  refine (Pay.pay0_at (iblk0 V c 0 t) (iblk0 V c 1 t) (iblk0 V c 2 t) (iblk0 V c 3 t) (iblk0 V c 4 t) p q).trans ?_
  rw [blockLayer0 V c t p q]
  rfl

/-- An index of the array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v44).slice (win0_5.rect t)).set ↔ _
  rw [View.set_slice_whole, Rect.mem_set_unit]
  exact Iff.rfl

/-- Every row is in the block of the point `row / 5000`. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 5000 :=
    ⟨Fin.cast N_0.symm ⟨(i 0).val / 5000, by omega⟩, rfl⟩
  refine ⟨t, flush0_5 t, ?_⟩
  rw [mem_blk0]
  obtain ⟨e00, e01, e10, e11, e20, e21, e30, e31, e40, e41, e50, e51⟩ := idx0 t
  intro a
  match a with
  | ⟨0, _⟩ => show win0_5.index t (0 : Fin 2) * 5000 ≤ (i 0).val ∧ (i 0).val < win0_5.index t (0 : Fin 2) * 5000 + 5000; rw [e50, ht]; omega
  | ⟨1, _⟩ => show win0_5.index t (1 : Fin 2) * 128 ≤ (i 1).val ∧ (i 1).val < win0_5.index t (1 : Fin 2) * 128 + 128; rw [e51]; omega

/-- THE ARRAY after the region: the whole-array function, the blocks covering every row. -/
theorem final0 (c : Dev nD) : (dat0 V c).arrAt 5 cfg0.N = G0 V c :=
  (dat0 V c).arrAt_eq_of_cover 5 (G0 V c) (fun t _ => flushed0 V c t) cover0

/-! ## Region 1: the second layer and the mean -/

/-- The window index maps, decided once over the twenty grid points: the feature windows and the output window move
    down the rows with the point, the weight and bias windows stay. -/
theorem idx1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt20_1 (t : Fin cfg1.N) : t.val < 20 := lt_of_lt_of_eq t.isLt N_1

/-- Where an entry of point `t`'s block of rows sits in the array: row `5000·t + p`, the same column. -/
theorem emb1_0 (t : Fin cfg1.N) (p : Fin 5000) (k : Fin 128) :
    ((cfg1.win 0).blk t).view.emb (ix2 p k) = ix2 (rowAt t.val (lt20_1 t) p) k := by
  obtain ⟨e00, e01, e10, e11, e20, e21, e30, e31, e40, e41, e50, e51⟩ := idx1 t
  funext a; apply Fin.ext
  match a with
  | ⟨0, _⟩ => show win1_0.index t (0 : Fin 2) * 5000 + 1 * p.val = t.val * 5000 + p.val; rw [e00]; omega
  | ⟨1, _⟩ => show win1_0.index t (1 : Fin 2) * 128 + 1 * k.val = k.val; rw [e01]; omega
theorem emb1_1 (t : Fin cfg1.N) (p : Fin 5000) (k : Fin 128) :
    ((cfg1.win 1).blk t).view.emb (ix2 p k) = ix2 (rowAt t.val (lt20_1 t) p) k := by
  obtain ⟨e00, e01, e10, e11, e20, e21, e30, e31, e40, e41, e50, e51⟩ := idx1 t
  funext a; apply Fin.ext
  match a with
  | ⟨0, _⟩ => show win1_1.index t (0 : Fin 2) * 5000 + 1 * p.val = t.val * 5000 + p.val; rw [e10]; omega
  | ⟨1, _⟩ => show win1_1.index t (1 : Fin 2) * 128 + 1 * k.val = k.val; rw [e11]; omega
theorem emb1_5 (t : Fin cfg1.N) (p : Fin 5000) (k : Fin 128) :
    ((cfg1.win 5).blk t).view.emb (ix2 p k) = ix2 (rowAt t.val (lt20_1 t) p) k := by
  obtain ⟨e00, e01, e10, e11, e20, e21, e30, e31, e40, e41, e50, e51⟩ := idx1 t
  funext a; apply Fin.ext
  match a with
  | ⟨0, _⟩ => show win1_5.index t (0 : Fin 2) * 5000 + 1 * p.val = t.val * 5000 + p.val; rw [e50]; omega
  | ⟨1, _⟩ => show win1_5.index t (1 : Fin 2) * 128 + 1 * k.val = k.val; rw [e51]; omega
/-- A weight window's block is the whole matrix at every point. -/
theorem emb1_2 (t : Fin cfg1.N) (k : Fin 128) (q : Fin 128) :
    ((cfg1.win 2).blk t).view.emb (ix2 k q) = ix2 k q := by
  obtain ⟨e00, e01, e10, e11, e20, e21, e30, e31, e40, e41, e50, e51⟩ := idx1 t
  funext a; apply Fin.ext
  match a with
  | ⟨0, _⟩ => show win1_2.index t (0 : Fin 2) * 128 + 1 * k.val = k.val; rw [e20]; omega
  | ⟨1, _⟩ => show win1_2.index t (1 : Fin 2) * 128 + 1 * q.val = q.val; rw [e21]; omega
theorem emb1_3 (t : Fin cfg1.N) (k : Fin 128) (q : Fin 128) :
    ((cfg1.win 3).blk t).view.emb (ix2 k q) = ix2 k q := by
  obtain ⟨e00, e01, e10, e11, e20, e21, e30, e31, e40, e41, e50, e51⟩ := idx1 t
  funext a; apply Fin.ext
  match a with
  | ⟨0, _⟩ => show win1_3.index t (0 : Fin 2) * 128 + 1 * k.val = k.val; rw [e30]; omega
  | ⟨1, _⟩ => show win1_3.index t (1 : Fin 2) * 128 + 1 * q.val = q.val; rw [e31]; omega
/-- The bias window's block is the whole row at every point. -/
theorem emb1_4 (t : Fin cfg1.N) (z : Fin 1) (q : Fin 128) :
    ((cfg1.win 4).blk t).view.emb (ix2 z q) = ix2 z q := by
  obtain ⟨e00, e01, e10, e11, e20, e21, e30, e31, e40, e41, e50, e51⟩ := idx1 t
  funext a; apply Fin.ext
  match a with
  | ⟨0, _⟩ => show win1_4.index t (0 : Fin 2) * 1 + 1 * z.val = z.val; rw [e40]; omega
  | ⟨1, _⟩ => show win1_4.index t (1 : Fin 2) * 128 + 1 * q.val = q.val; rw [e41]; omega

/-- Each input block at an entry is its array at the entry's place. -/
theorem iblk1_0_at (c : Dev nD) (t : Fin cfg1.N) (p : Fin 5000) (k : Fin 128) :
    iblk1 V c 0 t (ix2 p k) = V c main_v44 (ix2 (rowAt t.val (lt20_1 t) p) k) := by
  show V c main_v44 (((cfg1.win 0).blk t).view.emb (ix2 p k)) = _
  rw [emb1_0]
theorem iblk1_1_at (c : Dev nD) (t : Fin cfg1.N) (p : Fin 5000) (k : Fin 128) :
    iblk1 V c 1 t (ix2 p k) = V c main_v57 (ix2 (rowAt t.val (lt20_1 t) p) k) := by
  show V c main_v57 (((cfg1.win 1).blk t).view.emb (ix2 p k)) = _
  rw [emb1_1]
theorem iblk1_2_at (c : Dev nD) (t : Fin cfg1.N) (k : Fin 128) (q : Fin 128) :
    iblk1 V c 2 t (ix2 k q) = V c main_arg5 (ix2 k q) := by
  show V c main_arg5 (((cfg1.win 2).blk t).view.emb (ix2 k q)) = _
  rw [emb1_2]
theorem iblk1_3_at (c : Dev nD) (t : Fin cfg1.N) (k : Fin 128) (q : Fin 128) :
    iblk1 V c 3 t (ix2 k q) = V c main_arg6 (ix2 k q) := by
  show V c main_arg6 (((cfg1.win 3).blk t).view.emb (ix2 k q)) = _
  rw [emb1_3]
theorem iblk1_4_at (c : Dev nD) (t : Fin cfg1.N) (z : Fin 1) (q : Fin 128) :
    iblk1 V c 4 t (ix2 z q) = V c main_v58 (ix2 z q) := by
  show V c main_v58 (((cfg1.win 4).blk t).view.emb (ix2 z q)) = _
  rw [emb1_4]

/-- The layer this region computes, of the arrays as the region finds them; the bias is read from its [1, 128] row. -/
def L1 (c : Dev nD) : FVec Ideal SN .f32 :=
  layer (V c main_v44) (V c main_v57) (V c main_arg5) (V c main_arg6) (fun i => V c main_v58 (ix2 (n0 := 1) (n1 := 128) 0 (i 0)))

/-- What the region's output array ends holding. -/
def G1 (c : Dev nD) : FVec Ideal SN .f32 := mean2 (V c main_v44) (L1 V c)

/-- The block's layer entry is the array's layer entry at the block's place. -/
theorem blockLayer1 (c : Dev nD) (t : Fin cfg1.N) (p : Fin 5000) (q : Fin 128) :
    Pay.blockLayerAt (iblk1 V c 0 t) (iblk1 V c 1 t) (iblk1 V c 2 t) (iblk1 V c 3 t) (iblk1 V c 4 t) p q
      = L1 V c (ix2 (rowAt t.val (lt20_1 t) p) q) := by
  unfold Pay.blockLayerAt L1
  rw [layer_ix2]
  unfold layerAt
  simp only [iblk1_0_at, iblk1_1_at, iblk1_2_at, iblk1_3_at, iblk1_4_at]

/-- WHAT POINT `t` WRITES BACK is block `t` of the region's whole-array function. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show k1_pay1 (F := Ideal) (iblk1 V c 0 t) (iblk1 V c 1 t) (iblk1 V c 2 t) (iblk1 V c 3 t) (iblk1 V c 4 t) (iblk1 V c 0 t) (ix2 p q)
      = G1 V c (((cfg1.win 5).blk t).view.emb (ix2 p q))
  rw [emb1_5 t p q]
  refine (Pay.pay1_at (iblk1 V c 0 t) (iblk1 V c 1 t) (iblk1 V c 2 t) (iblk1 V c 3 t) (iblk1 V c 4 t) (iblk1 V c 0 t) p q).trans ?_
  rw [blockLayer1 V c t p q, iblk1_0_at V c t p q]
  rfl

/-- An index of the array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v59).slice (win1_5.rect t)).set ↔ _
  rw [View.set_slice_whole, Rect.mem_set_unit]
  exact Iff.rfl

/-- Every row is in the block of the point `row / 5000`. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 5000 :=
    ⟨Fin.cast N_1.symm ⟨(i 0).val / 5000, by omega⟩, rfl⟩
  refine ⟨t, flush1_5 t, ?_⟩
  rw [mem_blk1]
  obtain ⟨e00, e01, e10, e11, e20, e21, e30, e31, e40, e41, e50, e51⟩ := idx1 t
  intro a
  match a with
  | ⟨0, _⟩ => show win1_5.index t (0 : Fin 2) * 5000 ≤ (i 0).val ∧ (i 0).val < win1_5.index t (0 : Fin 2) * 5000 + 5000; rw [e50, ht]; omega
  | ⟨1, _⟩ => show win1_5.index t (1 : Fin 2) * 128 ≤ (i 1).val ∧ (i 1).val < win1_5.index t (1 : Fin 2) * 128 + 128; rw [e51]; omega

/-- THE ARRAY after the region: the whole-array function, the blocks covering every row. -/
theorem final1 (c : Dev nD) : (dat1 V c).arrAt 5 cfg1.N = G1 V c :=
  (dat1 V c).arrAt_eq_of_cover 5 (G1 V c) (fun t _ => flushed1 V c t) cover1

end Cert.KernelIdeal.Blocks

end
-- ==== Proof.KernelHost.lean ====
/-
  The host side of the kernel's run: what the arrays each pallas_call reads hold when it is entered, in terms of the
  launch memory.

  Before the first call the host computes, from the edge list alone, the source and target node of every edge, the
  degree of every node and from it the edge weights; then the aggregation of the features `x` (gather the target
  rows, scale by the weights, scatter-add into the source rows) and the bias as a row [1, 128]. Between the calls it
  aggregates the first call's output `x1` in the same way, REUSING the edge nodes and weights it already has. These
  are the very operations the reference applies (which recomputes the weights for its second layer), so each array is
  stated as the reference's own stage of the launch contents, and the aggregation is never opened. The argument
  arrays reach both calls as launched: no host operation writes one.
-/
import proofs.«122090_j24919400251990_1_alg».proof.Proof.Gen.KernelIdeal.Frame
import proofs.«122090_j24919400251990_1_alg».proof.Proof.RefReadPatched
import Idealize.ShloMosaic.Lib.Pipeline.Value
import Idealize.ShloMosaic.Lib.ValueIdx

set_option maxRecDepth 16384

noncomputable section

namespace Cert.KernelIdeal.HostSide

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ) (ρ : Dev nD → PrngReg)

/-! ## At the first call's entry -/

/-- The features reach the first call as launched. -/
theorem W3_arg0 (c : Dev nD) :
    W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

/-- So does the first layer's first weight matrix … -/
theorem W3_arg2 (c : Dev nD) :
    W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

/-- … and its second. -/
theorem W3_arg3 (c : Dev nD) :
    W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

/-- The second layer's weights are untouched too … -/
theorem W3_arg5 (c : Dev nD) :
    W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

/-- … both of them … -/
theorem W3_arg6 (c : Dev nD) :
    W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl

/-- … and its bias. -/
theorem W3_arg7 (c : Dev nD) :
    W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

/-- The edges' source nodes: the reference's stage of the edge list. -/
theorem W3_row (c : Dev nD) :
    W3 m ρ c (Proc.devRef .tc main_v1) = Cert.ReferenceIdeal.ReadP.val_main_v1 (F := F) (m ((c : Thread nD τ).loc main_arg1)) := by
  show StableHlo.after hostOps0_2 (StableHlo.after hostOps0_1 (StableHlo.after hostOps0 (W0 m ρ c))) (Proc.devRef .tc main_v1) = _
  after_results_simp
  rfl

/-- The edges' target nodes. -/
theorem W3_col (c : Dev nD) :
    W3 m ρ c (Proc.devRef .tc main_v3) = Cert.ReferenceIdeal.ReadP.val_main_v3 (F := F) (m ((c : Thread nD τ).loc main_arg1)) := by
  show StableHlo.after hostOps0_2 (StableHlo.after hostOps0_1 (StableHlo.after hostOps0 (W0 m ρ c))) (Proc.devRef .tc main_v3) = _
  after_results_simp
  rfl

/-- The edge weights, from the degrees. -/
theorem W3_wgt (c : Dev nD) :
    W3 m ρ c (Proc.devRef .tc main_v29) = Cert.ReferenceIdeal.ReadP.val_main_v29 (F := F) (m ((c : Thread nD τ).loc main_arg1)) := by
  show StableHlo.after hostOps0_2 (StableHlo.after hostOps0_1 (StableHlo.after hostOps0 (W0 m ρ c))) (Proc.devRef .tc main_v29) = _
  after_results_simp
  rfl

/-- The aggregated features of `x`: the reference's stage of `x` and the edge list. -/
theorem W3_agg (c : Dev nD) :
    W3 m ρ c (Proc.devRef .tc main_v42) = Cert.ReferenceIdeal.ReadP.val_main_v42 (F := F) (m ((c : Thread nD τ).loc main_arg0)) (m ((c : Thread nD τ).loc main_arg1)) := by
  show StableHlo.after hostOps0_2 (StableHlo.after hostOps0_1 (StableHlo.after hostOps0 (W0 m ρ c))) (Proc.devRef .tc main_v42) = _
  after_results_simp
  rfl

/-- The first bias as a row. -/
theorem W3_bias (c : Dev nD) :
    W3 m ρ c (Proc.devRef .tc main_v43) = shapeCast S1x128 (m ((c : Thread nD τ).loc main_arg4)) shapeCasts_S128_S1x128 := by
  show StableHlo.after hostOps0_2 (StableHlo.after hostOps0_1 (StableHlo.after hostOps0 (W0 m ρ c))) (Proc.devRef .tc main_v43) = _
  after_results_simp
  rfl

/-- A bias reshaped [128] → [1, 128], at column `q` of its one row. -/
theorem bias_row_at (b : (⟨S128, .f32⟩ : BufTy).Contents (Elt F)) (q : Fin 128) :
    shapeCast S1x128 b shapeCasts_S128_S1x128 (ix2 (0 : Fin 1) q) = b (ix1 q) :=
  shapeCast_apply b shapeCasts_S128_S1x128 (ix2 (0 : Fin 1) q) (ix1 q) (by
    rw [Shape.rowMajor_val_one, Shape.rowMajor_val_two]; show q.val = 0 * 128 + q.val; omega)

/-! ## At the second call's entry -/

/-- A buffer that is none of the first call's arrays is, after the call, what it was before. -/
theorem W4_keep (c : Dev nD) (b : Ref sig .tc) (hb : ∀ w, Pipeline.arrRef spec0 w ≠ b) :
    W4 m ρ c (Proc.devRef .tc b) = W3 m ρ c (Proc.devRef .tc b) := W4_of_ne m ρ c b hb

/-- The first call's output array, as the second call finds it: what the first pipeline left. -/
theorem W5_x1 (c : Dev nD) :
    W5 m ρ c (Proc.devRef .tc main_v44) = (dat0 (V3 m ρ) c).arrAt 5 cfg0.N := by
  show StableHlo.after hostOps1 (W4 m ρ c) (Proc.devRef .tc main_v44) = _
  after_results_simp
  exact W4_arr m ρ c 5

/-- The second layer's first weight matrix reaches the second call as launched … -/
theorem W5_arg5 (c : Dev nD) : W5 m ρ c (Proc.devRef .tc main_arg5) = m ((c : Thread nD τ).loc main_arg5) := by
  show StableHlo.after hostOps1 (W4 m ρ c) (Proc.devRef .tc main_arg5) = _
  after_results_simp
  exact (W4_keep m ρ c main_arg5 (by decide)).trans (W3_arg5 m ρ c)
/-- … and so does its second. -/
theorem W5_arg6 (c : Dev nD) : W5 m ρ c (Proc.devRef .tc main_arg6) = m ((c : Thread nD τ).loc main_arg6) := by
  show StableHlo.after hostOps1 (W4 m ρ c) (Proc.devRef .tc main_arg6) = _
  after_results_simp
  exact (W4_keep m ρ c main_arg6 (by decide)).trans (W3_arg6 m ρ c)

/-- The second bias as a row. -/
theorem W5_bias (c : Dev nD) :
    W5 m ρ c (Proc.devRef .tc main_v58) = shapeCast S1x128 (m ((c : Thread nD τ).loc main_arg7)) shapeCasts_S128_S1x128 := by
  show StableHlo.after hostOps1 (W4 m ρ c) (Proc.devRef .tc main_v58) = _
  after_results_simp
  rw [W4_keep m ρ c main_arg7 (by decide), W3_arg7 m ρ c]
  rfl

/-- The aggregated features of the first call's output: the reference's aggregation stage, applied to that output and
    the edge list — the edge nodes and weights the host kept are the reference's stages of the edge list. -/
theorem W5_agg (c : Dev nD) :
    W5 m ρ c (Proc.devRef .tc main_v57)
      = Cert.ReferenceIdeal.ReadP.val_main_v42 (F := F) (W4 m ρ c (Proc.devRef .tc main_v44)) (m ((c : Thread nD τ).loc main_arg1)) := by
  show StableHlo.after hostOps1 (W4 m ρ c) (Proc.devRef .tc main_v57) = _
  after_results_simp
  rw [W4_keep m ρ c main_v1 (by decide), W4_keep m ρ c main_v3 (by decide), W4_keep m ρ c main_v29 (by decide),
    W3_row m ρ c, W3_col m ρ c, W3_wgt m ρ c]
  rfl

end Cert.KernelIdeal.HostSide

end
-- ==== Proof.KernelValue.lean ====
/-
  The idealized kernel's result as one function of the launch memory.

  The first call leaves `x1 = layer x (tx x) W0₁ W1₁ b₁` in its output array (the blocks' cover, with the arrays the
  call finds read back to the launch memory through the host operations before it). The host then aggregates `x1`,
  and the second call leaves `(x1 + layer x1 (tx x1) W0₂ W1₂ b₂) · ½` in the result array. Here `tx` is the
  aggregation over the edge list, the reference's own host term.
-/
import proofs.«122090_j24919400251990_1_alg».proof.Proof.KernelBlocks
import proofs.«122090_j24919400251990_1_alg».proof.Proof.KernelHost

set_option maxRecDepth 16384

noncomputable section

namespace Cert.KernelIdeal.Final

open Cert.KernelIdeal Cert.KernelIdeal.Gen Cert.Cheb
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The first layer's output, of the launch memory. -/
def x1 (c : Dev nD) : FVec Ideal SN .f32 :=
  layer (m ((c : Thread nD τ).loc main_arg0)) (Cert.ReferenceIdeal.ReadP.val_main_v42 (F := Ideal) (m ((c : Thread nD τ).loc main_arg0)) (m ((c : Thread nD τ).loc main_arg1)))
    (m ((c : Thread nD τ).loc main_arg2)) (m ((c : Thread nD τ).loc main_arg3)) (m ((c : Thread nD τ).loc main_arg4))

/-- The network's output, of the launch memory. -/
def out (c : Dev nD) : FVec Ideal SN .f32 :=
  mean2 (x1 m c)
    (layer (x1 m c) (Cert.ReferenceIdeal.ReadP.val_main_v42 (F := Ideal) (x1 m c) (m ((c : Thread nD τ).loc main_arg1)))
      (m ((c : Thread nD τ).loc main_arg5)) (m ((c : Thread nD τ).loc main_arg6)) (m ((c : Thread nD τ).loc main_arg7)))

/-- A bias read back from its row [1, 128] is the bias. -/
theorem bias_back (b : (⟨S128, .f32⟩ : BufTy).Contents (Elt Ideal)) :
    (fun i : SB.Idx => shapeCast S1x128 b shapeCasts_S128_S1x128 (ix2 (n0 := 1) (n1 := 128) 0 (i 0))) = b := by
  funext i
  obtain ⟨q, rfl⟩ : ∃ q : Fin 128, i = ix1 q := ⟨i 0, eq_ix1 i⟩
  exact HostSide.bias_row_at b q

/-- The first call's output array ends at the first layer's output. -/
theorem first_call (c : Dev nD) : (dat0 (V3 m ρ) c).arrAt 5 cfg0.N = x1 m c := by
  rw [Blocks.final0 (V3 m ρ) c]
  unfold Blocks.G0 Blocks.L0 x1
  have h0 : V3 m ρ c main_arg0 = m ((c : Thread nD τ).loc main_arg0) := HostSide.W3_arg0 m ρ c
  have h1 : V3 m ρ c main_v42 = Cert.ReferenceIdeal.ReadP.val_main_v42 (F := Ideal) (m ((c : Thread nD τ).loc main_arg0)) (m ((c : Thread nD τ).loc main_arg1)) := HostSide.W3_agg m ρ c
  have h2 : V3 m ρ c main_arg2 = m ((c : Thread nD τ).loc main_arg2) := HostSide.W3_arg2 m ρ c
  have h3 : V3 m ρ c main_arg3 = m ((c : Thread nD τ).loc main_arg3) := HostSide.W3_arg3 m ρ c
  have h4 : V3 m ρ c main_v43 = shapeCast S1x128 (m ((c : Thread nD τ).loc main_arg4)) shapeCasts_S128_S1x128 := HostSide.W3_bias m ρ c
  rw [h0, h1, h2, h3, h4, bias_back]

/-- The result array ends at the network's output. -/
theorem result_eq (c : Dev nD) : W6 m ρ c (Proc.devRef .tc main_v59) = out m c := by
  refine (W6_arr m ρ c 5).trans ?_
  rw [Blocks.final1 (V5 m ρ) c]
  unfold Blocks.G1 Blocks.L1 out
  have hx : W4 m ρ c (Proc.devRef .tc main_v44) = x1 m c := (W4_arr m ρ c 5).trans (first_call m ρ c)
  have h0 : V5 m ρ c main_v44 = x1 m c := (HostSide.W5_x1 m ρ c).trans (first_call m ρ c)
  have h1 : V5 m ρ c main_v57 = Cert.ReferenceIdeal.ReadP.val_main_v42 (F := Ideal) (x1 m c) (m ((c : Thread nD τ).loc main_arg1)) :=
    (HostSide.W5_agg m ρ c).trans (by rw [hx])
  have h2 : V5 m ρ c main_arg5 = m ((c : Thread nD τ).loc main_arg5) := HostSide.W5_arg5 m ρ c
  have h3 : V5 m ρ c main_arg6 = m ((c : Thread nD τ).loc main_arg6) := HostSide.W5_arg6 m ρ c
  have h4 : V5 m ρ c main_v58 = shapeCast S1x128 (m ((c : Thread nD τ).loc main_arg7)) shapeCasts_S128_S1x128 := HostSide.W5_bias m ρ c
  rw [h0, h1, h2, h3, h4, bias_back]

end Cert.KernelIdeal.Final

end
-- ==== Proof.RefLayers.lean ====
/-
  The reference, read as two applications of one layer.

  The reference computes the neighbour aggregation `tx(x)` (a scatter-add over the edges of `x`'s gathered rows times
  the edge weights, all on the host), then `x1 = layer x (tx x) W0₁ W1₁ b₁`, then the same aggregation of `x1`
  (recomputing the edge weights from the edge list, by the same operations), then
  `x2 = layer x1 (tx x1) W0₂ W1₂ b₂`, and returns `(x1 + x2) · ½`. The aggregation is never opened: it is the same
  host term on both sides of the certificate. The host's `dot_general` at an entry is the sum over the contracted
  axis, which is the spec's sum once the operand indices are written by coordinates.
-/
import proofs.«122090_j24919400251990_1_alg».proof.Proof.RefReadPatched
import proofs.«122090_j24919400251990_1_alg».proof.Proof.Layer

noncomputable section

namespace Cert.ReferenceIdeal.Layers

open Cert.ReferenceIdeal Cert.ReferenceIdeal.ReadP Cert.Cheb
open Idealize.ShloMosaic Idealize.ShloMosaic.ValueIdx
open scoped BigOperators

variable (x0 : (⟨S100000x128, .f32⟩ : BufTy).Contents (Elt Ideal)) (x1 : (⟨S2x1600000, .i32⟩ : BufTy).Contents (Elt Ideal))
  (x2 x3 : (⟨S128x128, .f32⟩ : BufTy).Contents (Elt Ideal)) (x4 : (⟨S128, .f32⟩ : BufTy).Contents (Elt Ideal))
  (x5 x6 : (⟨S128x128, .f32⟩ : BufTy).Contents (Elt Ideal)) (x7 : (⟨S128, .f32⟩ : BufTy).Contents (Elt Ideal))

/-- The aggregated neighbour features of `x` over the edge list `ei`: the reference's host term, unopened. -/
abbrev agg (x : (⟨S100000x128, .f32⟩ : BufTy).Contents (Elt Ideal)) (ei : (⟨S2x1600000, .i32⟩ : BufTy).Contents (Elt Ideal)) :
    (⟨S100000x128, .f32⟩ : BufTy).Contents (Elt Ideal) := val_main_v42 (F := Ideal) x ei

/-- The first layer's output is the spec's layer of `x` and its aggregation. -/
theorem first_layer :
    val_main_v49 (F := Ideal) x0 x1 x2 x3 x4 = layer x0 (agg x0 x1) x2 x3 x4 := by
  funext j
  obtain ⟨r, q, rfl⟩ : ∃ (r : Fin 100000) (q : Fin 128), j = ix2 r q := ⟨j 0, j 1, eq_ix2 j⟩
  rw [val_main_v49_apply, val_main_v48_apply, val_main_v45_apply, val_main_v43_apply, val_main_v44_apply,
    val_main_v47_apply, val_main_v46_apply, val_main_call1_v0_apply, val_main_call1_cst_apply, layer_ix2]
  have e1 : ∀ k : Fin 128, lidx_main_v43 (ix2 r q) k = ix2 r k := fun k => funext fun a => Fin.ext (by
    match a with | ⟨0, _⟩ => rfl | ⟨1, _⟩ => rfl)
  have e2 : ∀ k : Fin 128, ridx_main_v43 (ix2 r q) k = ix2 k q := fun k => funext fun a => Fin.ext (by
    match a with | ⟨0, _⟩ => rfl | ⟨1, _⟩ => rfl)
  have e3 : ∀ k : Fin 128, lidx_main_v44 (ix2 r q) k = ix2 r k := fun k => funext fun a => Fin.ext (by
    match a with | ⟨0, _⟩ => rfl | ⟨1, _⟩ => rfl)
  have e4 : ∀ k : Fin 128, ridx_main_v44 (ix2 r q) k = ix2 k q := fun k => funext fun a => Fin.ext (by
    match a with | ⟨0, _⟩ => rfl | ⟨1, _⟩ => rfl)
  have e5 : idx_main_v46 (idx_main_v47 (ix2 r q)) = ix1 q := funext fun a => Fin.ext (by
    match a with | ⟨0, _⟩ => rfl)
  simp only [e1, e2, e3, e4, e5]
  rfl

/-- The second layer's aggregation is the first layer's host term applied to the first layer's output: the reference
    recomputes the edge weights from the edge list by the same operations. -/
theorem second_agg :
    val_main_v92 (F := Ideal) x0 x1 x2 x3 x4 = agg (val_main_v49 (F := Ideal) x0 x1 x2 x3 x4) x1 := rfl

/-- The reference's result: the mean of the two layers' outputs. -/
theorem result :
    val_main_v102 (F := Ideal) x0 x1 x2 x3 x4 x5 x6 x7
      = mean2 (layer x0 (agg x0 x1) x2 x3 x4)
          (layer (layer x0 (agg x0 x1) x2 x3 x4) (agg (layer x0 (agg x0 x1) x2 x3 x4) x1) x5 x6 x7) := by
  rw [← first_layer x0 x1 x2 x3 x4]
  funext j
  obtain ⟨r, q, rfl⟩ : ∃ (r : Fin 100000) (q : Fin 128), j = ix2 r q := ⟨j 0, j 1, eq_ix2 j⟩
  rw [val_main_v102_apply, val_main_v100_apply, val_main_v99_apply, val_main_v98_apply, val_main_v95_apply,
    val_main_v93_apply, val_main_v94_apply, val_main_v97_apply, val_main_v96_apply, val_main_call3_v0_apply,
    val_main_call3_cst_apply, val_main_v101_apply, val_main_cst_22_apply, second_agg]
  have e1 : ∀ k : Fin 128, lidx_main_v93 (ix2 r q) k = ix2 r k := fun k => funext fun a => Fin.ext (by
    match a with | ⟨0, _⟩ => rfl | ⟨1, _⟩ => rfl)
  have e2 : ∀ k : Fin 128, ridx_main_v93 (ix2 r q) k = ix2 k q := fun k => funext fun a => Fin.ext (by
    match a with | ⟨0, _⟩ => rfl | ⟨1, _⟩ => rfl)
  have e3 : ∀ k : Fin 128, lidx_main_v94 (ix2 r q) k = ix2 r k := fun k => funext fun a => Fin.ext (by
    match a with | ⟨0, _⟩ => rfl | ⟨1, _⟩ => rfl)
  have e4 : ∀ k : Fin 128, ridx_main_v94 (ix2 r q) k = ix2 k q := fun k => funext fun a => Fin.ext (by
    match a with | ⟨0, _⟩ => rfl | ⟨1, _⟩ => rfl)
  have e5 : idx_main_v96 (idx_main_v97 (ix2 r q)) = ix1 q := funext fun a => Fin.ext (by
    match a with | ⟨0, _⟩ => rfl)
  simp only [e1, e2, e3, e4, e5]
  rfl

end Cert.ReferenceIdeal.Layers

end
-- ==== Proof.lean ====
/-
  The certificate of a two-layer Chebyshev graph convolution (K = 2, 100000 nodes, 1600000 edges, 128 features).

  Both programs compute, from the edge list, the symmetric-normalised edge weights, and per layer the aggregation
  `tx(x)` of the neighbours' features (gather, scale, scatter-add: host operations on both sides, identical, never
  opened) followed by `relu(x · W0 + tx(x) · W1 + b)`; the result is the mean `(x1 + x2) · ½` of the two layers'
  outputs. The kernel computes each layer's affine part, rectifier and (in the second layer) the mean inside a
  pallas_call, on blocks of 5000 rows, its matrix products taken on operands narrowed to bf16; the reference computes
  them with whole-array `dot_general`s. At the exact instance narrowing a float is the identity and both kinds of
  product are the plain sum over the contracted axis, so both programs are the same function of their arguments:
  the spec's `layer` applied twice and `mean2` (Proof/Layer.lean). No law of the extended reals beyond the two sums
  being over the same index set is used, so the precondition (finite inputs) is never opened.

  Kernel side: the run with the result named (Proof/KernelRun.lean), each call's blocks as one function of the arrays
  it finds (Proof/KernelPayload.lean, Proof/KernelBlocks.lean), those arrays read back through the host operations
  (Proof/KernelHost.lean), composed (Proof/KernelValue.lean). Reference side: its run and its stages one operation at a
  time (Proof/RefRunPatched.lean, Proof/RefReadPatched.lean), read as the spec (Proof/RefLayers.lean).
  The ideal pass rewrote nothing, so `preserves` is `True`.
-/
import proofs.«122090_j24919400251990_1_alg».proof.Defs
import proofs.«122090_j24919400251990_1_alg».proof.Proof.Gen.Kernel
import proofs.«122090_j24919400251990_1_alg».proof.Proof.Gen.Kernel.Skeleton
import proofs.«122090_j24919400251990_1_alg».proof.Proof.Gen.Kernel.Launch
import proofs.«122090_j24919400251990_1_alg».proof.Proof.Gen.Kernel.Points
import proofs.«122090_j24919400251990_1_alg».proof.Proof.Gen.Kernel.Frame
import proofs.«122090_j24919400251990_1_alg».proof.Proof.Gen.KernelIdeal
import proofs.«122090_j24919400251990_1_alg».proof.Proof.Gen.KernelIdeal.Skeleton
import proofs.«122090_j24919400251990_1_alg».proof.Proof.Gen.KernelIdeal.Launch
import proofs.«122090_j24919400251990_1_alg».proof.Proof.Gen.KernelIdeal.Points
import proofs.«122090_j24919400251990_1_alg».proof.Proof.Gen.KernelIdeal.Frame
import proofs.«122090_j24919400251990_1_alg».proof.Proof.Gen.ReferenceIdeal
import proofs.«122090_j24919400251990_1_alg».proof.Proof.Gen.Pre_finite_inputs
import proofs.«122090_j24919400251990_1_alg».proof.Proof.KernelRun
import proofs.«122090_j24919400251990_1_alg».proof.Proof.KernelValue
import proofs.«122090_j24919400251990_1_alg».proof.Proof.RefLayers
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the result array at the spec's output of the
    kernel's launch memory: the kernel by its run read back (`Final.result_eq`), the reference by its run read as the
    spec (`Layers.result`) with the agreement rewritten. -/
theorem algebraic : Cert.algebraic_KernelIdeal_ReferenceIdeal := by
  intro m ρ m' ρ' _ hagree
  refine ⟨fun c => Cert.KernelIdeal.Final.out m c,
    (θ_run Cert.KernelIdeal.defs _ _).mono (fun _ h c => ⟨(h c).1.trans (Cert.KernelIdeal.Final.result_eq m ρ c), (h c).2⟩)
      (Cert.KernelIdeal.Whole.run_result (F := Ideal) m ρ), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v102_eq, Cert.ReferenceIdeal.Layers.result,
    (hagree c).1, (hagree c).2.1, (hagree c).2.2.1, (hagree c).2.2.2.1, (hagree c).2.2.2.2.1,
    (hagree c).2.2.2.2.2.1, (hagree c).2.2.2.2.2.2.1, (hagree c).2.2.2.2.2.2.2]
  rfl

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
